-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x128 : Shape := ⟨2, ![1, 128]⟩

abbrev nBuf : Space → Nat
  | .hbm => 66
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S1x128, .f32⟩
  | .hbm, ⟨65, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S128_S1x128 : S128.ShapeCasts S1x128
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The idealized kernel's run with its RESULT ARRAY named.

  The program is two grid launches with a stretch of host operations between them. Its buffer contents at each boundary are a
  fold from the launch memory (`Gen.W0` … `Gen.W5`: a host stretch applies its operations, a launch replaces its output array
  by what its write-backs leave), and every weakly fair execution terminates, nothing faulting, with every unscoped buffer of
  each core at the last boundary's contents `Gen.W5`. Read at the six argument arrays, `W5` is the launch memory; read at the
  result `main_v46` it is what the second launch's write-backs leave, which the value modules open.
-/
import proofs.«129516_j9998683865329_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's contents
    and the six argument arrays as launched: the launch of the two regions and the host stretches between them, the final
    thread state (every unscoped buffer at `W5`) read against the final memory at the result and at each argument. -/
theorem run_named : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Hand

end
-- ==== Proof.Aggregate.lean ====
/-
  The aggregation both programs apply between the two linear maps, as ONE function.

  From the edge array `e` : [2,1600000] the programs build the source and target lists with a self-loop per node appended
  (1700000 entries each), the degree of every node as a target (ones scatter-added along the targets), its inverse square
  root where the degree is positive and zero elsewhere, and for every edge the product of the two end points' factors. Given
  node features `h` : [100000,64], the result scatter-adds, along the targets, the source's feature row scaled by the edge's
  factor. Which entries a gather or a scatter-add touches depends on the values of `e`, so the function is carried whole:
  nothing below opens `Host.gather` or `Host.scatterAdd`; the two programs are shown to apply this same function to equal
  features and the same edges. The pieces take the intermediate lists as arguments, so that a program's operations can be
  read a stretch at a time.
-/
import proofs.«129516_j9998683865329_1_alg».proof.Proof.Gen.KernelIdeal

noncomputable section

namespace Cert.KernelIdeal.Hand

open Idealize.ShloMosaic Idealize.SL.Sem
open Cert.KernelIdeal Cert.KernelIdeal.Gen

variable {F : FTy → Type} [FloatOps F]

/-- Row 0 of the edge array (the sources) followed by the node numbers 0 … 99999 (a self-loop per node). -/
def endpoints0 (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge array (the targets) followed by the node numbers 0 … 99999. -/
def endpoints1 (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: 100000 is added to it. -/
def wrapNeg (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The degree of every node as a target: ones scatter-added into zeros along the targets. -/
def degreeOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) (broadcastInDim S1700000 ![] bcast_S_S1700000 (constant (F := F) S_ .f32 0x3F800000#32))

/-- `a` where the mask holds, the scalar `z` elsewhere. -/
def whereOf (p : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select p a (broadcastInDim S100000 ![] bcast_S_S100000 (id z))

/-- The inverse square root of the degree where it is positive, zero elsewhere. -/
def invRootOf (dst : (⟨S1700000, .i32⟩ : BufTy).Contents (Elt F)) : (⟨S100000, .f32⟩ : BufTy).Contents (Elt F) :=
  whereOf (F := F) (cmpf (F := F) .ogt (degreeOf (F := F) dst) (broadcastInDim S100000 ![] bcast_S_S100000 (constant (F := F) S_ .f32 0x00000000#32)))
    (Host.rsqrt (degreeOf (F := F) dst)) (constant (F := F) S_ .f32 0x00000000#32)

/-- Along the targets, the sum of the sources' feature rows, each scaled by the product of its edge's two end-point factors. -/
def aggOf (h : (⟨S100000x64, .f32⟩ : BufTy).Contents (Elt F)) (src dst : (⟨S1700000, .i32⟩ : BufTy).Contents (Elt F))
    (dinv : (⟨S100000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 dst)
    (mulf (Host.gather gather_S100000x64_S1700000x1_S1700000x64_1_0_n_n_0_1_164 h (broadcastInDim S1700000x1 ![0] bcast_S1700000_S1700000x1_0 (wrapNeg (F := F) src)))
      (broadcastInDim S1700000x64 ![0, 1] bcast_S1700000x1_S1700000x64_0_1 (broadcastInDim S1700000x1 ![0] bcast_S1700000_S1700000x1_0
        (mulf (Host.gather gather_S100000_S1700000x1_S1700000_n_0_n_n_0_1_1 dinv (broadcastInDim S1700000x1 ![0] bcast_S1700000_S1700000x1_0 (wrapNeg (F := F) src)))
          (Host.gather gather_S100000_S1700000x1_S1700000_n_0_n_n_0_1_1 dinv (broadcastInDim S1700000x1 ![0] bcast_S1700000_S1700000x1_0 (wrapNeg (F := F) dst)))))))

/-- The aggregation of features `h` along the edge array `e`. -/
def agg (h : (⟨S100000x64, .f32⟩ : BufTy).Contents (Elt F)) (e : (⟨S2x1600000, .i32⟩ : BufTy).Contents (Elt F)) :
    (⟨S100000x64, .f32⟩ : BufTy).Contents (Elt F) :=
  aggOf (F := F) h (endpoints0 (F := F) e) (endpoints1 (F := F) e) (invRootOf (F := F) (endpoints1 (F := F) e))

end Cert.KernelIdeal.Hand

end
-- ==== Proof.FirstProduct.lean ====
/-
  The first launch: a [100000,128] array times a [128,64] array, ten row blocks of 10000 rows.

  Each grid point loads its 10000-row block of the left operand and the whole right operand, multiplies them into a zero
  accumulator and stores the [10000,64] product as its block of the output. On the extended reals a product accumulated
  into zero is the plain sum over the contracted axis, a change of float format is the identity, and rows b·10000 … b·10000 + 9999
  of the output depend on the same rows of the left operand only: so the output array ends holding the whole product
  `matProd`, entry (r, q) the sum over k of left (r, k) · right (k, q). The ten blocks tile the output, so no entry keeps its
  contents from before the launch.
-/
import proofs.«129516_j9998683865329_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- Entry (r, q) of the product of an [n,128] array and a [128,64] array. -/
def matProdAt {n : Nat} (x : (⟨2, ![n, 128]⟩ : Shape).Idx → EReal) (w : (⟨2, ![128, 64]⟩ : Shape).Idx → EReal)
    (r : Fin n) (q : Fin 64) : EReal :=
  ∑ k : Fin 128, x (ix2 r k) * w (ix2 k q)

/-- The product of a [100000,128] array and a [128,64] array, index by index. -/
def matProd (x : S100000x128.Idx → EReal) (w : S128x64.Idx → EReal) : S100000x64.Idx → EReal :=
  fun i => matProdAt (n := 100000) x w (i 0) (i 1)

theorem matProd_ix2 (x : S100000x128.Idx → EReal) (w : S128x64.Idx → EReal) (r : Fin 100000) (q : Fin 64) :
    matProd x w (ix2 r q) = ∑ k : Fin 128, x (ix2 r k) * w (ix2 k q) := rfl

/-! ## The body's product at an index -/

theorem lhs0_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs0_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs0_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at (p, q): the sum over k of the left block at (p, k) times the right block at (k, q). -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs0_0 _ _).trans hk
    | ⟨1, _⟩ => exact rhs0_1 _ _)
  show x0 (dot_S10000x128_S128x64_S10000x64_1_0_0_1_n_n.lhsIdx (ix2 p q) ((contrEquiv1 dot_S10000x128_S128x64_S10000x64_1_0_0_1_n_n 128 rfl rfl).symm k)) * x1 (dot_S10000x128_S128x64_S10000x64_1_0_0_1_n_n.rhsIdx (ix2 p q) ((contrEquiv1 dot_S10000x128_S128x64_S10000x64_1_0_0_1_n_n 128 rfl rfl).symm k)) = _
  rw [el, er]

/-- One point: if the left block is rows b·10000 … of `X` and the right block is `Wt`, the stored value at an entry is the
    whole product at the entry b·10000 rows further down. -/
theorem point0 (X : S100000x128.Idx → EReal) (Wt : S128x64.Idx → EReal)
    (x0 : Vec Ideal S10000x128 .f32) (x1 : Vec Ideal S128x64 .f32) (b : Nat)
    (h0 : ∀ (p : Fin 10000) (r : Fin 100000) (k : Fin 128), r.val = b * 10000 + p.val → x0 (ix2 p k) = X (ix2 r k))
    (h1 : ∀ (k : Fin 128) (q : Fin 64), x1 (ix2 k q) = Wt (ix2 k q))
    (p : Fin 10000) (q : Fin 64) (r : Fin 100000) (hr : r.val = b * 10000 + p.val) :
    k0_pay1 (F := Ideal) x0 x1 (ix2 p q) = matProd X Wt (ix2 r q) := by
  rw [pay0_apply, matProd_ix2]
  exact Finset.sum_congr rfl fun k _ => by rw [h0 p r k hr, h1 k q]

/-! ## The blocks and the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's block moves with the output's along the rows, the right
    operand's block is always the whole array, and the output's row-block index is at most 9. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the output is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The left operand's block at a point, read at an entry: the array as the region finds it, `index · 10000` rows down. -/
theorem iblk0_0_apply (c : Dev nD) (t : Fin cfg0.N) (y : S10000x128.Idx) (i : S100000x128.Idx)
    (h0 : (i 0).val = win0_0.index t (0 : Fin 2) * 10000 + (y 0).val) (h1 : (i 1).val = win0_0.index t (1 : Fin 2) * 128 + (y 1).val) :
    (iblk0 V c 0 t : Vec Ideal S10000x128 .f32) y = (V c main_arg0 : S100000x128.Idx → EReal) i := by
  unfold iblk0
  rw [View.read_apply]
  show V c main_arg0 _ = V c main_arg0 i
  congr 1
  funext a
  apply Fin.ext
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The right operand's block at a point, read at an entry. -/
theorem iblk0_1_apply (c : Dev nD) (t : Fin cfg0.N) (y : S128x64.Idx) (i : S128x64.Idx)
    (h0 : (i 0).val = win0_1.index t (0 : Fin 2) * 128 + (y 0).val) (h1 : (i 1).val = win0_1.index t (1 : Fin 2) * 64 + (y 1).val) :
    (iblk0 V c 1 t : Vec Ideal S128x64 .f32) y = (V c main_arg2 : S128x64.Idx → EReal) i := by
  unfold iblk0
  rw [View.read_apply]
  show V c main_arg2 _ = V c main_arg2 i
  congr 1
  funext a
  apply Fin.ext
  match a with
  | ⟨0, _⟩ => show win0_1.index t (0 : Fin 2) * 128 + 1 * (y 0).val = (i 0).val; omega
  | ⟨1, _⟩ => show win0_1.index t (1 : Fin 2) * 64 + 1 * (y 1).val = (i 1).val; omega

/-- What point `t` writes back is block `t` of the whole product of the two operands as the region finds them. -/
theorem flushed0_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts0 t
  funext j
  obtain ⟨p, q, rfl⟩ : ∃ (p : Fin 10000) (q : Fin 64), j = ix2 p q := ⟨j 0, j 1, eq_ix2 j⟩
  have hr : win0_2.index t (0 : Fin 2) * 10000 + p.val < 100000 := by have := p.isLt; omega
  show k0_pay1 (F := Ideal) (iblk0 V c 0 t) (iblk0 V c 1 t) (ix2 p q)
    = matProd (V c main_arg0) (V c main_arg2) (((cfg0.win 2).blk t).view.emb (ix2 p q))
  have hemb : ((cfg0.win 2).blk t).view.emb (ix2 p q) = (ix2 (⟨win0_2.index t (0 : Fin 2) * 10000 + p.val, hr⟩ : Fin 100000) q : S100000x64.Idx) := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  rw [hemb]
  clear hemb
  refine point0 (V c main_arg0) (V c main_arg2) _ _ (win0_2.index t (0 : Fin 2)) ?_ ?_ p q _ rfl
  · intro p' r k hrk
    refine iblk0_0_apply V c t (ix2 p' k) (ix2 r k) ?_ ?_
    · show r.val = win0_0.index t (0 : Fin 2) * 10000 + p'.val
      rw [e0]; exact hrk
    · show k.val = win0_0.index t (1 : Fin 2) * 128 + k.val
      rw [e1, Nat.zero_mul, Nat.zero_add]
  · intro k q'
    refine iblk0_1_apply V c t (ix2 k q') (ix2 k q') ?_ ?_
    · show k.val = win0_1.index t (0 : Fin 2) * 128 + k.val
      rw [e2, Nat.zero_mul, Nat.zero_add]
    · show q'.val = win0_1.index t (1 : Fin 2) * 64 + q'.val
      rw [e3, Nat.zero_mul, Nat.zero_add]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every entry of the output is in the block of the point whose row-block index is its row divided by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the launch: the whole product of the two operands as the region finds them. -/
theorem final0 (c : Dev nD) : (dat0 V c).arrAt 2 cfg0.N = matProd (V c main_arg0) (V c main_arg2) :=
  (dat0 V c).arrAt_eq_of_cover 2 (matProd (V c main_arg0) (V c main_arg2)) (fun t _ => flushed0_eq V c t) cover0

end Region

end Cert.KernelIdeal.Hand

end
-- ==== Proof.Between.lean ====
/-
  What the second launch finds: the buffers after the first launch and the host operations between the two.

  The first launch leaves the product x · W₁ in its output buffer and touches nothing else. The host operations then compute,
  from that buffer and the edge array, the aggregation `agg` (one function, never opened), and re-lay the two bias vectors as
  single rows. So on entry to the second launch: the aggregated features are `agg (x · W₁) e`, the bias rows are the two bias
  arguments cast from [64] to [1,64] and from [128] to [1,128], and the second weight array is the argument itself.

  The host operations come in three stretches (before, inside and after the call that selects the inverse root where the
  degree is positive). Each stretch is read from an ARBITRARY valuation of the buffers, one result at a time: the first gives
  the source and target lists, the mask "degree > 0", the inverse root and the zero scalar; the call selects; the last forms
  the aggregation from the features, the two lists and the selected factors.
-/
import proofs.«129516_j9998683865329_1_alg».proof.Proof.Gen.KernelIdeal.Frame
import proofs.«129516_j9998683865329_1_alg».proof.Proof.Aggregate
import proofs.«129516_j9998683865329_1_alg».proof.Proof.FirstProduct
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

/-- Each remaining operation's result at its own buffer is its function of its operands' buffers, and at any other buffer
    what was there. -/
local macro "read_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## The three stretches, from any valuation -/

section Stretches

set_option maxHeartbeats 2000000 in
/-- The source list after the first stretch. -/
theorem src_after (W : Valuation τ sig (Elt Ideal)) :
    StableHlo.after hostOps1 W (Proc.devRef .tc main_v4) = endpoints0 (F := Ideal) (W (Proc.devRef .tc main_arg1)) := by
  after_results_simp
  read_results
  rfl

set_option maxHeartbeats 2000000 in
/-- The target list after the first stretch. -/
theorem dst_after (W : Valuation τ sig (Elt Ideal)) :
    StableHlo.after hostOps1 W (Proc.devRef .tc main_v7) = endpoints1 (F := Ideal) (W (Proc.devRef .tc main_arg1)) := by
  after_results_simp
  read_results
  rfl

set_option maxHeartbeats 2000000 in
/-- The mask "degree > 0" after the first stretch. -/
theorem mask_after (W : Valuation τ sig (Elt Ideal)) :
    StableHlo.after hostOps1 W (Proc.devRef .tc main_v13)
      = cmpf (F := Ideal) .ogt (degreeOf (F := Ideal) (endpoints1 (F := Ideal) (W (Proc.devRef .tc main_arg1))))
          (broadcastInDim S100000 ![] bcast_S_S100000 (constant (F := Ideal) S_ .f32 0x00000000#32)) := by
  after_results_simp
  read_results
  rfl

set_option maxHeartbeats 2000000 in
/-- The inverse square root of the degree after the first stretch. -/
theorem rsqrt_after (W : Valuation τ sig (Elt Ideal)) :
    StableHlo.after hostOps1 W (Proc.devRef .tc main_v14)
      = (Host.rsqrt (F := Ideal) (φ := .f32) (degreeOf (F := Ideal) (endpoints1 (F := Ideal) (W (Proc.devRef .tc main_arg1))))
          : (⟨S100000, .f32⟩ : BufTy).Contents (Elt Ideal)) := by
  after_results_simp
  read_results
  rfl

set_option maxHeartbeats 2000000 in
/-- The zero scalar after the first stretch. -/
theorem zero_after (W : Valuation τ sig (Elt Ideal)) :
    StableHlo.after hostOps1 W (Proc.devRef .tc main_cst_2) = constant (F := Ideal) S_ .f32 0x00000000#32 := by
  after_results_simp

set_option maxHeartbeats 2000000 in
/-- The first stretch does not write the features. -/
theorem feat_after (W : Valuation τ sig (Elt Ideal)) :
    StableHlo.after hostOps1 W (Proc.devRef .tc main_v0) = W (Proc.devRef .tc main_v0) := by
  after_results_simp

set_option maxHeartbeats 2000000 in
/-- The call selects the inverse root where the mask holds and the scalar elsewhere. -/
theorem where_call (W : Valuation τ sig (Elt Ideal)) :
    StableHlo.after hostOps1_1 W (Proc.devRef .tc main_v15)
      = whereOf (F := Ideal) (W (Proc.devRef .tc main_v13)) (W (Proc.devRef .tc main_v14)) (W (Proc.devRef .tc main_cst_2)) := by
  after_results_simp
  rfl

set_option maxHeartbeats 2000000 in
/-- The call writes neither list nor the features. -/
theorem src_call (W : Valuation τ sig (Elt Ideal)) :
    StableHlo.after hostOps1_1 W (Proc.devRef .tc main_v4) = W (Proc.devRef .tc main_v4) := by
  after_results_simp
set_option maxHeartbeats 2000000 in
theorem dst_call (W : Valuation τ sig (Elt Ideal)) :
    StableHlo.after hostOps1_1 W (Proc.devRef .tc main_v7) = W (Proc.devRef .tc main_v7) := by
  after_results_simp
set_option maxHeartbeats 2000000 in
theorem feat_call (W : Valuation τ sig (Elt Ideal)) :
    StableHlo.after hostOps1_1 W (Proc.devRef .tc main_v0) = W (Proc.devRef .tc main_v0) := by
  after_results_simp

set_option maxHeartbeats 4000000 in
/-- The last stretch forms the aggregation from the features, the two lists and the selected factors. -/
theorem agg_last (W : Valuation τ sig (Elt Ideal)) :
    StableHlo.after hostOps1_2 W (Proc.devRef .tc main_v43)
      = aggOf (F := Ideal) (W (Proc.devRef .tc main_v0)) (W (Proc.devRef .tc main_v4)) (W (Proc.devRef .tc main_v7)) (W (Proc.devRef .tc main_v15)) := by
  after_results_simp
  read_results
  rfl

/-- The three stretches in a row: the aggregation of the features buffer along the edge array. -/
theorem agg_through (W : Valuation τ sig (Elt Ideal)) :
    StableHlo.after hostOps1_2 (StableHlo.after hostOps1_1 (StableHlo.after hostOps1 W)) (Proc.devRef .tc main_v43)
      = agg (F := Ideal) (W (Proc.devRef .tc main_v0)) (W (Proc.devRef .tc main_arg1)) := by
  rw [agg_last (StableHlo.after hostOps1_1 (StableHlo.after hostOps1 W)),
    feat_call (StableHlo.after hostOps1 W), src_call (StableHlo.after hostOps1 W), dst_call (StableHlo.after hostOps1 W),
    where_call (StableHlo.after hostOps1 W),
    feat_after W, src_after W, dst_after W, mask_after W, rsqrt_after W, zero_after W]
  rfl

end Stretches

/-! ## From the launch memory -/

variable (m : (ℓ : Loc nD τ sig) → Buf (Elt Ideal) ℓ) (ρ : Dev nD → PrngReg)

/-- After the first launch its output buffer holds the product of the first and third arguments. -/
theorem features_after_first (c : Dev nD) :
    W1 m ρ c (Proc.devRef .tc main_v0) = matProd (m ((c : Thread nD τ).loc main_arg0)) (m ((c : Thread nD τ).loc main_arg2)) :=
  (W1_arr m ρ c 2).trans (final0 (V0 m ρ) c)

/-- The first launch leaves every buffer that is not one of its arrays as launched. -/
theorem edges_after_first (c : Dev nD) : W1 m ρ c (Proc.devRef .tc main_arg1) = m ((c : Thread nD τ).loc main_arg1) :=
  W1_of_ne m ρ c main_arg1 (by decide)
theorem bias1_after_first (c : Dev nD) : W1 m ρ c (Proc.devRef .tc main_arg3) = m ((c : Thread nD τ).loc main_arg3) :=
  W1_of_ne m ρ c main_arg3 (by decide)
theorem weight2_after_first (c : Dev nD) : W1 m ρ c (Proc.devRef .tc main_arg4) = m ((c : Thread nD τ).loc main_arg4) :=
  W1_of_ne m ρ c main_arg4 (by decide)
theorem bias2_after_first (c : Dev nD) : W1 m ρ c (Proc.devRef .tc main_arg5) = m ((c : Thread nD τ).loc main_arg5) :=
  W1_of_ne m ρ c main_arg5 (by decide)

/-- The host operations between the launches leave, in the buffer the second launch reads its first operand from, the
    aggregation of the first launch's output along the edge array. -/
theorem aggregated_at_second (c : Dev nD) :
    V4 m ρ c main_v43 = agg (F := Ideal) (W1 m ρ c (Proc.devRef .tc main_v0)) (W1 m ρ c (Proc.devRef .tc main_arg1)) :=
  agg_through (W1 m ρ c)

set_option maxHeartbeats 4000000 in
/-- The first bias row on entry to the second launch: the [64] argument cast to [1,64]. -/
theorem bias1_at_second (c : Dev nD) :
    V4 m ρ c main_v44 = shapeCast S1x64 (W1 m ρ c (Proc.devRef .tc main_arg3)) shapeCasts_S64_S1x64 := by
  show StableHlo.after hostOps1_2 (StableHlo.after hostOps1_1 (StableHlo.after hostOps1 (W1 m ρ c))) (Proc.devRef .tc main_v44) = _
  after_results_simp
  rfl

set_option maxHeartbeats 4000000 in
/-- The second bias row on entry to the second launch: the [128] argument cast to [1,128]. -/
theorem bias2_at_second (c : Dev nD) :
    V4 m ρ c main_v45 = shapeCast S1x128 (W1 m ρ c (Proc.devRef .tc main_arg5)) shapeCasts_S128_S1x128 := by
  show StableHlo.after hostOps1_2 (StableHlo.after hostOps1_1 (StableHlo.after hostOps1 (W1 m ρ c))) (Proc.devRef .tc main_v45) = _
  after_results_simp
  rfl

set_option maxHeartbeats 4000000 in
/-- No host operation writes the second weight array. -/
theorem weight2_at_second (c : Dev nD) : V4 m ρ c main_arg4 = W1 m ρ c (Proc.devRef .tc main_arg4) := by
  show StableHlo.after hostOps1_2 (StableHlo.after hostOps1_1 (StableHlo.after hostOps1 (W1 m ρ c))) (Proc.devRef .tc main_arg4) = _
  after_results_simp

end Cert.KernelIdeal.Hand

end
-- ==== Proof.SecondLayer.lean ====
/-
  The second launch: rows of a [100000,64] array shifted by a bias row, clipped below at zero, times a [64,128] array,
  plus a second bias row; ten row blocks of 10000 rows.

  Each grid point loads its 10000-row block of the first operand and the three small operands whole, and stores
  (max (a + b₁, 0)) · w + b₂ as its [10000,128] block of the output, the product accumulated into zero. On the extended
  reals the product is the plain sum over the 64 contracted entries and a change of float format is the identity, so the
  output array ends holding `layer`: entry (r, q) is the sum over k of max (a (r, k) + b₁ (0, k), 0) · w (k, q), plus
  b₂ (0, q). Rows of the output depend on the same rows of the first operand only, and the ten blocks tile the output.
-/
import proofs.«129516_j9998683865329_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- Entry (r, q) of the layer: the clipped, shifted row r of `a` against column q of `w`, plus the second bias at q. -/
def layerAt {n : Nat} (a : (⟨2, ![n, 64]⟩ : Shape).Idx → EReal) (b1 : (⟨2, ![1, 64]⟩ : Shape).Idx → EReal)
    (w : (⟨2, ![64, 128]⟩ : Shape).Idx → EReal) (b2 : (⟨2, ![1, 128]⟩ : Shape).Idx → EReal) (r : Fin n) (q : Fin 128) : EReal :=
  (∑ k : Fin 64, max (a (ix2 r k) + b1 (ix2 (0 : Fin 1) k)) (Ideal.ofBits .f32 0x00000000#32) * w (ix2 k q)) + b2 (ix2 (0 : Fin 1) q)

/-- The layer on a [100000,64] array, index by index. -/
def layer (a : S100000x64.Idx → EReal) (b1 : S1x64.Idx → EReal) (w : S64x128.Idx → EReal) (b2 : S1x128.Idx → EReal) :
    S100000x128.Idx → EReal :=
  fun i => layerAt (n := 100000) a b1 w b2 (i 0) (i 1)

theorem layer_ix2 (a : S100000x64.Idx → EReal) (b1 : S1x64.Idx → EReal) (w : S64x128.Idx → EReal) (b2 : S1x128.Idx → EReal)
    (r : Fin 100000) (q : Fin 128) :
    layer a b1 w b2 (ix2 r q)
      = (∑ k : Fin 64, max (a (ix2 r k) + b1 (ix2 (0 : Fin 1) k)) (Ideal.ofBits .f32 0x00000000#32) * w (ix2 k q)) + b2 (ix2 (0 : Fin 1) q) := rfl

/-! ## The body's value at an index -/

theorem lhs1_0 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs1_1 (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
theorem rhs1_0 (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem rhs1_1 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A product of a [10000,64] and a [64,128] block into the zero accumulator, at (p, q): the sum over k. -/
theorem prod1_apply (l : FVec Ideal S10000x64 .bf16) (r : FVec Ideal S64x128 .bf16) (p : Fin 10000) (q : Fin 128) :
    matmul dot_S10000x64_S64x128_S10000x128_1_0_0_1_n_n none l r (constant S10000x128 .f32 0x00000000#32) (ix2 p q) = ∑ k : Fin 64, l (ix2 p k) * r (ix2 k q) := by
  refine (Ideal.matmul_constant_zero_apply dot_S10000x64_S64x128_S10000x128_1_0_0_1_n_n none l r (ix2 p q)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs1_0 _ _
    | ⟨1, _⟩ => exact (lhs1_1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-- The body's stored value at (p, q). -/
theorem pay1_apply (v0 : Vec Ideal S10000x64 .f32) (v2 : Vec Ideal S1x64 .f32) (v9 : Vec Ideal S64x128 .f32) (v12 : Vec Ideal S1x128 .f32)
    (p : Fin 10000) (q : Fin 128) :
    k1_pay1 (F := Ideal) v0 v2 v9 v12 (ix2 p q)
      = (∑ k : Fin 64, max (v0 (ix2 p k) + v2 (ix2 (0 : Fin 1) k)) (Ideal.ofBits .f32 0x00000000#32) * v9 (ix2 k q)) + v12 (ix2 (0 : Fin 1) q) := by
  unfold k1_pay1
  rw [addf_apply, prod1_apply, shapeCast_self, shapeCast_self, shapeCast_self, broadcastTo_1b_ab_apply (a := 10000) (b := 128)]
  refine congrArg (· + v12 (ix2 (0 : Fin 1) q)) (Finset.sum_congr rfl fun k _ => ?_)
  rw [truncf_apply, truncf_apply, maximumf_apply, addf_apply, broadcastTo_1b_ab_apply (a := 10000) (b := 64)]
  rfl

/-- One point: if the first block is rows b·10000 … of `A` and the other three blocks are the whole small operands, the
    stored value at an entry is the layer at the entry b·10000 rows further down. -/
theorem point1 (A : S100000x64.Idx → EReal) (B1 : S1x64.Idx → EReal) (Wt : S64x128.Idx → EReal) (B2 : S1x128.Idx → EReal)
    (x0 : Vec Ideal S10000x64 .f32) (x1 : Vec Ideal S1x64 .f32) (x2 : Vec Ideal S64x128 .f32) (x3 : Vec Ideal S1x128 .f32) (b : Nat)
    (h0 : ∀ (p : Fin 10000) (r : Fin 100000) (k : Fin 64), r.val = b * 10000 + p.val → x0 (ix2 p k) = A (ix2 r k))
    (h1 : ∀ k : Fin 64, x1 (ix2 (0 : Fin 1) k) = B1 (ix2 (0 : Fin 1) k))
    (h2 : ∀ (k : Fin 64) (q : Fin 128), x2 (ix2 k q) = Wt (ix2 k q))
    (h3 : ∀ q : Fin 128, x3 (ix2 (0 : Fin 1) q) = B2 (ix2 (0 : Fin 1) q))
    (p : Fin 10000) (q : Fin 128) (r : Fin 100000) (hr : r.val = b * 10000 + p.val) :
    k1_pay1 (F := Ideal) x0 x1 x2 x3 (ix2 p q) = layer A B1 Wt B2 (ix2 r q) := by
  rw [pay1_apply, layer_ix2, h3 q]
  exact congrArg (· + B2 (ix2 (0 : Fin 1) q)) (Finset.sum_congr rfl fun k _ => by rw [h0 p r k hr, h1 k, h2 k q])

/-! ## The blocks and the array -/

section Region
variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the first operand's block moves with the output's along the rows, the three
    small operands' blocks are always whole, and the output's row-block index is at most 9. -/
theorem idx_facts1 : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block of the output is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- The first operand's block at a point, read at an entry: the array as the region finds it, `index · 10000` rows down. -/
theorem iblk1_0_apply (c : Dev nD) (t : Fin cfg1.N) (y : S10000x64.Idx) (i : S100000x64.Idx)
    (h0 : (i 0).val = win1_0.index t (0 : Fin 2) * 10000 + (y 0).val) (h1 : (i 1).val = win1_0.index t (1 : Fin 2) * 64 + (y 1).val) :
    (iblk1 V c 0 t : Vec Ideal S10000x64 .f32) y = (V c main_v43 : S100000x64.Idx → EReal) i := by
  unfold iblk1
  rw [View.read_apply]
  show V c main_v43 _ = V c main_v43 i
  congr 1
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The first bias row's block at a point, read at an entry. -/
theorem iblk1_1_apply (c : Dev nD) (t : Fin cfg1.N) (y : S1x64.Idx) (i : S1x64.Idx)
    (h0 : (i 0).val = win1_1.index t (0 : Fin 2) * 1 + (y 0).val) (h1 : (i 1).val = win1_1.index t (1 : Fin 2) * 64 + (y 1).val) :
    (iblk1 V c 1 t : Vec Ideal S1x64 .f32) y = (V c main_v44 : S1x64.Idx → EReal) i := by
  unfold iblk1
  rw [View.read_apply]
  show V c main_v44 _ = V c main_v44 i
  congr 1
  funext a
  apply Fin.ext
  match a with
  | ⟨0, _⟩ => show win1_1.index t (0 : Fin 2) * 1 + 1 * (y 0).val = (i 0).val; omega
  | ⟨1, _⟩ => show win1_1.index t (1 : Fin 2) * 64 + 1 * (y 1).val = (i 1).val; omega

/-- The right operand's block at a point, read at an entry. -/
theorem iblk1_2_apply (c : Dev nD) (t : Fin cfg1.N) (y : S64x128.Idx) (i : S64x128.Idx)
    (h0 : (i 0).val = win1_2.index t (0 : Fin 2) * 64 + (y 0).val) (h1 : (i 1).val = win1_2.index t (1 : Fin 2) * 128 + (y 1).val) :
    (iblk1 V c 2 t : Vec Ideal S64x128 .f32) y = (V c main_arg4 : S64x128.Idx → EReal) i := by
  unfold iblk1
  rw [View.read_apply]
  show V c main_arg4 _ = V c main_arg4 i
  congr 1
  funext a
  apply Fin.ext
  match a with
  | ⟨0, _⟩ => show win1_2.index t (0 : Fin 2) * 64 + 1 * (y 0).val = (i 0).val; omega
  | ⟨1, _⟩ => show win1_2.index t (1 : Fin 2) * 128 + 1 * (y 1).val = (i 1).val; omega

/-- The second bias row's block at a point, read at an entry. -/
theorem iblk1_3_apply (c : Dev nD) (t : Fin cfg1.N) (y : S1x128.Idx) (i : S1x128.Idx)
    (h0 : (i 0).val = win1_3.index t (0 : Fin 2) * 1 + (y 0).val) (h1 : (i 1).val = win1_3.index t (1 : Fin 2) * 128 + (y 1).val) :
    (iblk1 V c 3 t : Vec Ideal S1x128 .f32) y = (V c main_v45 : S1x128.Idx → EReal) i := by
  unfold iblk1
  rw [View.read_apply]
  show V c main_v45 _ = V c main_v45 i
  congr 1
  funext a
  apply Fin.ext
  match a with
  | ⟨0, _⟩ => show win1_3.index t (0 : Fin 2) * 1 + 1 * (y 0).val = (i 0).val; omega
  | ⟨1, _⟩ => show win1_3.index t (1 : Fin 2) * 128 + 1 * (y 1).val = (i 1).val; omega

/-- What point `t` writes back is block `t` of the layer of the four operands as the region finds them. -/
theorem flushed1_eq (c : Dev nD) (t : Fin cfg1.N) :
    (dat1 V c).flushed 4 t
      = ((cfg1.win 4).blk t).view.read (Elt Ideal) (layer (V c main_v43) (V c main_v44) (V c main_arg4) (V c main_v45)) := by
  show (cfg1.win 4).cut (grid1.coords t) ((dat1 V c).after 4 t) = _
  rw [after1_4]
  unfold out1_4
  rw [View.canon_unit_zero hz1]
  simp only [View.ld_unit_zero (S := S10000x64) hz1, View.ld_unit_zero (S := S1x64) hz1, View.ld_unit_zero (S := S64x128) hz1,
    View.ld_unit_zero (S := S1x128) hz1]
  obtain ⟨e0, e1, e2, e3, e4, e5, e6, e7, e8, e9⟩ := idx_facts1 t
  funext j
  obtain ⟨p, q, rfl⟩ : ∃ (p : Fin 10000) (q : Fin 128), j = ix2 p q := ⟨j 0, j 1, eq_ix2 j⟩
  have hr : win1_4.index t (0 : Fin 2) * 10000 + p.val < 100000 := by have := p.isLt; omega
  show k1_pay1 (F := Ideal) (iblk1 V c 0 t) (iblk1 V c 1 t) (iblk1 V c 2 t) (iblk1 V c 3 t) (ix2 p q)
    = layer (V c main_v43) (V c main_v44) (V c main_arg4) (V c main_v45) (((cfg1.win 4).blk t).view.emb (ix2 p q))
  have hemb : ((cfg1.win 4).blk t).view.emb (ix2 p q) = (ix2 (⟨win1_4.index t (0 : Fin 2) * 10000 + p.val, hr⟩ : Fin 100000) q : S100000x128.Idx) := by
    funext a; apply Fin.ext
    match a with
    | ⟨0, _⟩ => show win1_4.index t (0 : Fin 2) * 10000 + 1 * p.val = win1_4.index t (0 : Fin 2) * 10000 + p.val; omega
    | ⟨1, _⟩ => show win1_4.index t (1 : Fin 2) * 128 + 1 * q.val = q.val; omega
  rw [hemb]
  clear hemb
  refine point1 (V c main_v43) (V c main_v44) (V c main_arg4) (V c main_v45) _ _ _ _ (win1_4.index t (0 : Fin 2)) ?_ ?_ ?_ ?_ p q _ rfl
  · intro p' r k hrk
    refine iblk1_0_apply V c t (ix2 p' k) (ix2 r k) ?_ ?_
    · show r.val = win1_0.index t (0 : Fin 2) * 10000 + p'.val
      rw [e0]; exact hrk
    · show k.val = win1_0.index t (1 : Fin 2) * 64 + k.val
      rw [e1, Nat.zero_mul, Nat.zero_add]
  · intro k
    refine iblk1_1_apply V c t (ix2 (0 : Fin 1) k) (ix2 (0 : Fin 1) k) ?_ ?_
    · show (0 : Nat) = win1_1.index t (0 : Fin 2) * 1 + 0
      rw [e2]
    · show k.val = win1_1.index t (1 : Fin 2) * 64 + k.val
      rw [e3, Nat.zero_mul, Nat.zero_add]
  · intro k q'
    refine iblk1_2_apply V c t (ix2 k q') (ix2 k q') ?_ ?_
    · show k.val = win1_2.index t (0 : Fin 2) * 64 + k.val
      rw [e4, Nat.zero_mul, Nat.zero_add]
    · show q'.val = win1_2.index t (1 : Fin 2) * 128 + q'.val
      rw [e5, Nat.zero_mul, Nat.zero_add]
  · intro q'
    refine iblk1_3_apply V c t (ix2 (0 : Fin 1) q') (ix2 (0 : Fin 1) q') ?_ ?_
    · show (0 : Nat) = win1_3.index t (0 : Fin 2) * 1 + 0
      rw [e6]
    · show q'.val = win1_3.index t (1 : Fin 2) * 128 + q'.val
      rw [e7, Nat.zero_mul, Nat.zero_add]

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v46).slice (win1_4.rect t)).set ↔ _
  rw [View.set_slice_whole, Rect.mem_set_unit]
  exact Iff.rfl

/-- Every entry of the output is in the block of the point whose row-block index is its row divided by 10000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The output array after the launch: the layer of the four operands as the region finds them. -/
theorem final1 (c : Dev nD) :
    (dat1 V c).arrAt 4 cfg1.N = layer (V c main_v43) (V c main_v44) (V c main_arg4) (V c main_v45) :=
  (dat1 V c).arrAt_eq_of_cover 4 (layer (V c main_v43) (V c main_v44) (V c main_arg4) (V c main_v45)) (fun t _ => flushed1_eq V c t) cover1

end Region

end Cert.KernelIdeal.Hand

end
-- ==== Proof.Whole.lean ====
/-
  The whole result as one function of the six arguments.

  features  := x · W₁                              (the first launch; the reference's first contraction)
  gathered  := agg features e                      (the host operations both programs share)
  result    := max (gathered + b₁, 0) · W₂ + b₂    (the second launch; the reference's last five operations)

  The two bias vectors enter as single rows, [64] cast to [1,64] and [128] cast to [1,128]: row 0 of the cast at k is the
  vector at k.
-/
import proofs.«129516_j9998683865329_1_alg».proof.Proof.Aggregate
import proofs.«129516_j9998683865329_1_alg».proof.Proof.FirstProduct
import proofs.«129516_j9998683865329_1_alg».proof.Proof.SecondLayer

noncomputable section

namespace Cert.KernelIdeal.Hand

open Idealize.ShloMosaic Idealize.SL.Sem
open Cert.KernelIdeal Cert.KernelIdeal.Gen

/-- The layer of the aggregated product, the biases as single rows. -/
def gcn (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x128, .f32⟩ : BufTy).Contents (Elt Ideal)) (x5 : (⟨S128, .f32⟩ : BufTy).Contents (Elt Ideal)) :
    (⟨S100000x128, .f32⟩ : BufTy).Contents (Elt Ideal) :=
  layer (agg (F := Ideal) (matProd x0 x2) x1) (shapeCast S1x64 x3 shapeCasts_S64_S1x64) x4 (shapeCast S1x128 x5 shapeCasts_S128_S1x128)

end Cert.KernelIdeal.Hand

end
-- ==== Proof.KernelValue.lean ====
/-
  The idealized kernel's run, read: the result array ends at `gcn` of the six arguments.

  The result buffer at the last boundary is what the second launch's write-backs leave: the layer of the four arrays that launch
  finds (`final1`). Those are the aggregation of the first launch's output along the edge array, the two bias vectors as single
  rows and the second weight array (Proof/Between.lean); and the first launch's output is the product of the first and third
  arguments (`final0`). Composed, that is `gcn`.
-/
import proofs.«129516_j9998683865329_1_alg».proof.Proof.KernelRun
import proofs.«129516_j9998683865329_1_alg».proof.Proof.Between
import proofs.«129516_j9998683865329_1_alg».proof.Proof.SecondLayer
import proofs.«129516_j9998683865329_1_alg».proof.Proof.Whole

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at the last boundary is `gcn` of the launch contents of the six arguments. -/
theorem result_eq (c : Dev nD) :
    W5 m ρ c (Proc.devRef .tc main_v46)
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W5_arr m ρ c 4).trans ((final1 (V4 m ρ) c).trans ?_)
  rw [aggregated_at_second m ρ c, bias1_at_second m ρ c, bias2_at_second m ρ c, weight2_at_second m ρ c,
    features_after_first m ρ c, edges_after_first m ρ c, bias1_after_first m ρ c, weight2_after_first m ρ c, bias2_after_first m ρ c]
  rfl

/-- Every weakly fair execution of the idealized kernel terminates, nothing faulting, with the result array at `gcn` of the
    arguments and the arguments unchanged. -/
theorem run : θ_run defs (onTc (τ := τ) (main (F := Ideal))) ⟨m, fun _ => 0, ρ⟩ (fun r => ∀ c : Dev nD,
      r.2.mem ((c.tc : Thread nD τ).loc main_v46)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named (F := Ideal) m ρ)

end Cert.KernelIdeal.Hand

end
-- ==== Proof.RefSide.lean ====
/-
  The reference's result is the same function of the arguments as the kernel's.

  Read one operation at a time, the reference computes the product x · W₁ as one contraction, the aggregation along the edge
  array by the very operations the kernel's program applies between its launches, then adds the first bias along the rows,
  clips below at zero, contracts with W₂ and adds the second bias along the rows. On the extended reals a contraction is the sum
  over the contracted axis, and a bias broadcast along the rows read at (r, k) is the bias at k — which is also what the bias
  cast to a single row reads at (0, k). So the reference's last stage is `layer` of `agg` of `matProd`, entry by entry.
-/
import proofs.«129516_j9998683865329_1_alg».proof.Proof.RefReadPatched
import proofs.«129516_j9998683865329_1_alg».proof.Proof.Whole
import Idealize.ShloMosaic.Lib.ValueLayout

set_option maxRecDepth 16384

noncomputable section

namespace Cert.ReferenceIdeal.Hand

open Idealize.ShloMosaic Idealize.ShloMosaic.TcCoe Idealize.SL.Sem
open Idealize.ShloMosaic.ValueIdx
open Cert.ReferenceIdeal Cert.ReferenceIdeal.Gen Cert.ReferenceIdeal.ReadP
open Cert.KernelIdeal.Hand (matProd matProd_ix2 layer layer_ix2 agg gcn)

/-- The reference's first contraction is the product, entry by entry. -/
theorem first_product (x0 : (⟨S100000x128, .f32⟩ : BufTy).Contents (Elt Ideal)) (x2 : (⟨S128x64, .f32⟩ : BufTy).Contents (Elt Ideal)) :
    val_main_v30 (F := Ideal) x0 x2 = matProd x0 x2 := by
  funext i
  obtain ⟨r, q, rfl⟩ : ∃ (r : Fin 100000) (q : Fin 64), i = ix2 r q := ⟨i 0, i 1, eq_ix2 i⟩
  rw [val_main_v30_apply, matProd_ix2]
  refine Finset.sum_congr rfl fun k _ => ?_
  have el : lidx_main_v30 (ix2 r q) k = ix2 r k := funext fun a => by match a with | ⟨0, _⟩ => rfl | ⟨1, _⟩ => rfl
  have er : ridx_main_v30 (ix2 r q) k = ix2 k q := funext fun a => by match a with | ⟨0, _⟩ => rfl | ⟨1, _⟩ => rfl
  rw [el, er]

set_option maxHeartbeats 1000000 in
/-- The reference's stages from the edge array to the second scatter-add are the aggregation of its first contraction. -/
theorem aggregated (x0 : (⟨S100000x128, .f32⟩ : BufTy).Contents (Elt Ideal)) (x1 : (⟨S2x1600000, .i32⟩ : BufTy).Contents (Elt Ideal))
    (x2 : (⟨S128x64, .f32⟩ : BufTy).Contents (Elt Ideal)) :
    val_main_v43 (F := Ideal) x0 x1 x2 = agg (F := Ideal) (val_main_v30 (F := Ideal) x0 x2) x1 := rfl

/-- The reference's last stage is `gcn` of the arguments. -/
theorem last_stage (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x128, .f32⟩ : BufTy).Contents (Elt Ideal)) (x5 : (⟨S128, .f32⟩ : BufTy).Contents (Elt Ideal)) :
    val_main_v51 (F := Ideal) x0 x1 x2 x3 x4 x5 = gcn x0 x1 x2 x3 x4 x5 := by
  funext i
  obtain ⟨r, q, rfl⟩ : ∃ (r : Fin 100000) (q : Fin 128), i = ix2 r q := ⟨i 0, i 1, eq_ix2 i⟩
  unfold Cert.KernelIdeal.Hand.gcn
  rw [layer_ix2, val_main_v51_apply, val_main_v48_apply, val_main_v50_apply, val_main_v49_apply,
    shapeCast_a_1a_apply (a := 128) x5 Cert.KernelIdeal.Gen.shapeCasts_S128_S1x128 (0 : Fin 1) q]
  have e5 : idx_main_v49 (idx_main_v50 (ix2 r q)) = ix1 q := funext fun a => by match a with | ⟨0, _⟩ => rfl
  rw [e5]
  refine congrArg (· + x5 (ix1 q)) (Finset.sum_congr rfl fun k _ => ?_)
  have el : lidx_main_v48 (ix2 r q) k = ix2 r k := funext fun a => by match a with | ⟨0, _⟩ => rfl | ⟨1, _⟩ => rfl
  have er : ridx_main_v48 (ix2 r q) k = ix2 k q := funext fun a => by match a with | ⟨0, _⟩ => rfl | ⟨1, _⟩ => rfl
  have e3 : idx_main_v44 (idx_main_v45 (ix2 r k)) = ix1 k := funext fun a => by match a with | ⟨0, _⟩ => rfl
  rw [el, er, val_main_v47_apply, val_main_v46_apply, val_main_v45_apply, val_main_v44_apply, val_main_call1_v0_apply,
    val_main_call1_cst_apply, e3, aggregated, first_product,
    shapeCast_a_1a_apply (a := 64) x3 Cert.KernelIdeal.Gen.shapeCasts_S64_S1x64 (0 : Fin 1) k]
  rfl

/-- The term the reference's run ends at is `gcn` of the launch contents of the six arguments. -/
theorem result_eq (m : (ℓ : Loc nD τ sig) → Buf (Elt Ideal) ℓ) (c : Dev nD) :
    Cert.ReferenceIdeal.ValueP.res_main_v51 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v51_eq m c).trans (last_stage _ _ _ _ _ _)

end Cert.ReferenceIdeal.Hand

end
-- ==== Proof.lean ====
/-
  The proof of `Cert.Claim`: a two-layer graph convolution — x · W₁, aggregated along the edges with symmetric degree
  normalisation and self-loops, plus b₁, clipped below at zero, times W₂, plus b₂ — computed by two grid launches around a stretch
  of host operations, against the same function written as plain array operations.

  On the extended reals the two programs compute ONE function of the six arguments, `gcn` (Proof/Whole.lean):
  * each launch's product into a zero accumulator is the sum over the contracted axis, as the reference's contraction is, and the
    ten row blocks of each launch tile its output (Proof/FirstProduct.lean, Proof/SecondLayer.lean);
  * the aggregation between the launches is, operation for operation, the reference's (Proof/Aggregate.lean names it once;
    Proof/Between.lean reads it off the kernel's host operations, Proof/RefSide.lean off the reference's);
  * a bias added along the rows is the bias at the column, whether it is broadcast on the host or cast to a single row and
    broadcast inside the launch.
  No step uses a law that fails at an infinity (only the sums' own terms are compared, term by term), so the finiteness of the
  inputs is never opened. The idealization rewrote no operation, so `preserves` asks nothing.
  The three frames: both kernels' are the generated frame certificates; the reference's is its run with the result dropped.
-/
import proofs.«129516_j9998683865329_1_alg».proof.Defs
import proofs.«129516_j9998683865329_1_alg».proof.Proof.Gen.Kernel
import proofs.«129516_j9998683865329_1_alg».proof.Proof.Gen.Kernel.Skeleton
import proofs.«129516_j9998683865329_1_alg».proof.Proof.Gen.Kernel.Launch
import proofs.«129516_j9998683865329_1_alg».proof.Proof.Gen.Kernel.Points
import proofs.«129516_j9998683865329_1_alg».proof.Proof.Gen.Kernel.Frame
import proofs.«129516_j9998683865329_1_alg».proof.Proof.Gen.KernelIdeal
import proofs.«129516_j9998683865329_1_alg».proof.Proof.Gen.KernelIdeal.Skeleton
import proofs.«129516_j9998683865329_1_alg».proof.Proof.Gen.KernelIdeal.Launch
import proofs.«129516_j9998683865329_1_alg».proof.Proof.Gen.KernelIdeal.Points
import proofs.«129516_j9998683865329_1_alg».proof.Proof.Gen.KernelIdeal.Frame
import proofs.«129516_j9998683865329_1_alg».proof.Proof.Gen.ReferenceIdeal
import proofs.«129516_j9998683865329_1_alg».proof.Proof.Gen.Pre_finite_inputs
import proofs.«129516_j9998683865329_1_alg».proof.Proof.RefRunPatched
import proofs.«129516_j9998683865329_1_alg».proof.Proof.KernelValue
import proofs.«129516_j9998683865329_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end with the result at `gcn` of those arguments. -/
theorem algebraic : Cert.algebraic_KernelIdeal_ReferenceIdeal := by
  intro m ρ m' ρ' _ hagree
  refine ⟨fun c => Cert.KernelIdeal.Hand.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Hand.result_eq m' c, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
